-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S8192x256 : Shape := ⟨2, ![8192, 256]⟩
abbrev S8192 : Shape := ⟨1, ![8192]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32x256x32x32 .f32) (main_arg1 : FVec F S8192x256 .f32) (main_arg2 : FVec F S8192 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32x256x32x32 : Shape := ⟨4, ![32, 256, 32, 32]⟩
abbrev S8192x256 : Shape := ⟨2, ![8192, 256]⟩
abbrev S8192 : Shape := ⟨1, ![8192]⟩
abbrev S32x256x1024 : Shape := ⟨3, ![32, 256, 1024]⟩
abbrev S1x8192 : Shape := ⟨2, ![1, 8192]⟩
abbrev S32768x8192 : Shape := ⟨2, ![32768, 8192]⟩
abbrev S1x256x256 : Shape := ⟨3, ![1, 256, 256]⟩
abbrev S256x8192 : Shape := ⟨2, ![256, 8192]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S32x256x32x32, .f32⟩
  | .hbm, ⟨1, _⟩ => ⟨S8192x256, .f32⟩
  | .hbm, ⟨2, _⟩ => ⟨S8192, .f32⟩
  | .hbm, ⟨3, _⟩ => ⟨S32x256x1024, .f32⟩
  | .hbm, ⟨4, _⟩ => ⟨S8192x256, .bf16⟩
  | .hbm, ⟨5, _⟩ => ⟨S1x8192, .f32⟩
  | .hbm, ⟨6, _⟩ => ⟨S32768x8192, .f32⟩
  | .local _ .vmem, ⟨0, _⟩ => ⟨S1x256x256, .f32⟩
  | .local _ .vmem, ⟨1, _⟩ => ⟨S1x256x256, .f32⟩
  | .local _ .vmem, ⟨2, _⟩ => ⟨S8192x256, .bf16⟩
  | .local _ .vmem, ⟨3, _⟩ => ⟨S1x8192, .f32⟩
  | .local _ .vmem, ⟨4, _⟩ => ⟨S256x8192, .f32⟩
  | .local _ .vmem, ⟨5, _⟩ => ⟨S256x8192, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S32x256x32x32_S32x256x1024 : S32x256x32x32.ShapeCasts S32x256x1024
  bitsLt_bf16_f32 : FTy.bits .bf16 < FTy.bits .f32
  shapeCasts_S8192_S1x8192 : S8192.ShapeCasts S1x8192
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  reduces_S256x8192_S256 : S256x8192.Reduces [1] S256
  shapeCasts_S256_S256x1 : S256.ShapeCasts S256x1
  broadcasts_S256x1_S256x8192 : S256x1.Broadcasts S256x8192
  inb_S256x8192_S256x8192_0_0 : ∀ a, (![0, 0] : Fin 2 → Nat) a + S256x8192.size a ≤ S256x8192.size a
  h_S256x8192 : 0 < S256x8192.numel
  dot_S256x256_S8192x256_S256x8192_0_1_1_0_n_n_wf : DotDims.WF S256x256 S8192x256 S256x8192 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S32x256x1024.size a
  hwx0_0 : ∀ i : grid0.Coords, EltTy.bits .f32 = 32 ∨ (Rect.block (s := S32x256x1024) S1x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S32768x8192.size a
  hwx0_3 : ∀ i : grid0.Coords, EltTy.bits .f32 = 32 ∨ (Rect.block (s := S32768x8192) S256x8192.size (cc0_transform_3 i) (hinb0_3 i)).WholeWords (EltTy.packing .f32)

variable [Facts₀]

def dot_S256x256_S8192x256_S256x8192_0_1_1_0_n_n : DotDims S256x256 S8192x256 S256x8192 where
  lhsContracting := [0]
  rhsContracting := [1]
  lhsNonContracting := [1]
  rhsNonContracting := [0]
  lhsBatch := []
  rhsBatch := []
  wf := dot_S256x256_S8192x256_S256x8192_0_1_1_0_n_n_wf

abbrev win0_0 : Pipeline.Window sig grid0 :=
  Pipeline.Window.ofSpec (Memref.whole main_v0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x32x32 : Shape := ⟨4, ![32, 256, 32, 32]⟩
abbrev S8192x256 : Shape := ⟨2, ![8192, 256]⟩
abbrev S8192 : Shape := ⟨1, ![8192]⟩
abbrev S32x32x32x256 : Shape := ⟨4, ![32, 32, 32, 256]⟩
abbrev S32768x256 : Shape := ⟨2, ![32768, 256]⟩
abbrev S256x8192 : Shape := ⟨2, ![256, 8192]⟩
abbrev S32768x8192 : Shape := ⟨2, ![32768, 8192]⟩
abbrev S1x8192 : Shape := ⟨2, ![1, 8192]⟩
abbrev S_ : Shape := ⟨0, ![]⟩
abbrev S32768 : Shape := ⟨1, ![32768]⟩
abbrev S32768x1 : Shape := ⟨2, ![32768, 1]⟩

abbrev nBuf : Space → Nat
  | .hbm => 24
  | .vmem => 0
  | .smem => 0
  | _ => 0

abbrev bufTy : (tb : Table) → Fin (tcTables nBuf tb) → BufTy
  | .hbm, ⟨0, _⟩ => ⟨S32x256x32x32, .f32⟩
  | .hbm, ⟨1, _⟩ => ⟨S8192x256, .f32⟩
  | .hbm, ⟨2, _⟩ => ⟨S8192, .f32⟩
  | .hbm, ⟨3, _⟩ => ⟨S32x32x32x256, .f32⟩
  | .hbm, ⟨4, _⟩ => ⟨S32768x256, .f32⟩
  | .hbm, ⟨5, _⟩ => ⟨S256x8192, .f32⟩
  | .hbm, ⟨6, _⟩ => ⟨S32768x8192, .f32⟩
  | .hbm, ⟨7, _⟩ => ⟨S1x8192, .f32⟩
  | .hbm, ⟨8, _⟩ => ⟨S32768x8192, .f32⟩
  | .hbm, ⟨9, _⟩ => ⟨S32768x8192, .f32⟩
  | .hbm, ⟨10, _⟩ => ⟨S_, .f32⟩
  | .hbm, ⟨11, _⟩ => ⟨S32768, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768x1, .f32⟩
  | .hbm, ⟨16, _⟩ => ⟨S32768x8192, .f32⟩
  | .hbm, ⟨17, _⟩ => ⟨S32768x8192, .f32⟩
  | .hbm, ⟨18, _⟩ => ⟨S32768x8192, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S32768x8192, .f32⟩
  | .hbm, ⟨23, _⟩ => ⟨S32768x8192, .f32⟩
  | _, _ => ⟨S32x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  transposes_S32x256x32x32_S32x32x32x256_0_2_3_1 : S32x256x32x32.Transposes [0, 2, 3, 1] S32x32x32x256
  shapeCasts_S32x32x32x256_S32768x256 : S32x32x32x256.ShapeCasts S32768x256
  transposes_S8192x256_S256x8192_1_0 : S8192x256.Transposes [1, 0] S256x8192
  bcast_S8192_S1x8192_1 : S8192.BroadcastsInDim S1x8192 (![1] : Fin 1 → Fin S1x8192.rank)
  bcast_S1x8192_S32768x8192_0_1 : S1x8192.BroadcastsInDim S32768x8192 (![0, 1] : Fin 2 → Fin S32768x8192.rank)
  reducesTo_S32768x8192_S32768_d1 : S32768x8192.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x8192_0_1 : S32768x1.BroadcastsInDim S32768x8192 (![0, 1] : Fin 2 → Fin S32768x8192.rank)
  dot_S32768x256_S256x8192_S32768x8192_1_0_0_1_n_n_wf : DotDims.WF S32768x256 S256x8192 S32768x8192 [1] [0] [0] [1] [] []

variable [Facts₀]

def dot_S32768x256_S256x8192_S32768x8192_1_0_0_1_n_n : DotDims S32768x256 S256x8192 S32768x8192 where
  lhsContracting := [1]
  rhsContracting := [0]
  lhsNonContracting := [0]
  rhsNonContracting := [1]
  lhsBatch := []
  rhsBatch := []
  wf := dot_S32768x256_S256x8192_S32768x8192_1_0_0_1_n_n_wf

class Facts : Prop extends Facts₀ where

variable [Facts]
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.Payload.lean ====
/-
  The value the kernel body stores, read at one entry of the `[256, 8192]` output block.

  The body loads a `[1, 256, 256]` block of the input (channel × token-in-block), the whole `[8192, 256]` weight matrix
  and the `[1, 8192]` bias row. Entry `(p, q)` of the product contracts the CHANNEL axis — axis 0 of the input block, axis
  1 of the weights — so the block's score of token `p` against atom `q` is `(∑ k, x[0, k, p] · w[q, k]) + b[0, q]`
  (a change of float format is the identity on the extended reals). The stored value is the exponential of that score
  times the reciprocal of the sum, over the 8192 atoms, of the exponentials of token `p`'s scores.
-/
import proofs.«172182_g76914274337305_cont_9to1_m_1179_6_alg».proof.Proof.Gen.KernelIdeal.Skeleton
import proofs.«172182_g76914274337305_cont_9to1_m_1179_6_alg».proof.Proof.LibKeepdims
import Idealize.ShloMosaic.Lib.ValueIdx
import Idealize.ShloMosaic.Lib.ValueLayout
import Idealize.ShloMosaic.PureOps.Ideal.Laws

noncomputable section

namespace Cert.KernelSoftmax

open Cert.KernelIdeal Cert.KernelIdeal.Gen Idealize.ShloMosaic Idealize.ShloMosaic.ValueIdx

/-- Token `p`'s score against atom `q` inside one block: the contraction over the 256 channels, plus the bias. -/
def blockLogit (x : FVec Ideal S1x256x256 .f32) (w : FVec Ideal S8192x256 .bf16) (b : FVec Ideal S1x8192 .f32)
    (p : Fin 256) (q : Fin 8192) : EReal :=
  (∑ k : Fin 256, x (ix3 (0 : Fin 1) k p) * w (ix2 q k)) + b (ix2 (0 : Fin 1) q)

/-- The block of scores as the body computes it: the matrix product into a zero accumulator plus the broadcast bias row. -/
def scores (x : FVec Ideal S1x256x256 .f32) (w : FVec Ideal S8192x256 .bf16) (b : FVec Ideal S1x8192 .f32) : FVec Ideal S256x8192 .f32 :=
  addf (matmul (F := Ideal) (φ₁ := .bf16) (φ₂ := .bf16) dot_S256x256_S8192x256_S256x8192_0_1_1_0_n_n none
      (truncf .bf16 (shapeCast S256x256 x shapeCasts_S1x256x256_S256x256 : FVec Ideal S256x256 .f32) bitsLt_bf16_f32)
      (shapeCast S8192x256 w shapeCasts_S8192x256_S8192x256 : FVec Ideal S8192x256 .bf16) (constant S256x8192 .f32 0x00000000#32))
    (broadcastTo S256x8192 (shapeCast S1x8192 b shapeCasts_S1x8192_S1x8192 : FVec Ideal S1x8192 .f32) broadcasts_S1x8192_S256x8192)

/-- The stored value is the exponentials of the scores times the row-wise reciprocal of their sums, spread over the columns. -/
theorem pay_eq (x : FVec Ideal S1x256x256 .f32) (w : FVec Ideal S8192x256 .bf16) (b : FVec Ideal S1x8192 .f32) :
    k0_pay1 (F := Ideal) x w b
      = mulf (exp (scores x w b))
          (broadcastTo S256x8192
            (divf (broadcast S256x1 (Scalar.ofBits (F := Ideal) .f32 0x3F800000#32))
              (shapeCast S256x1 (multiReduction (F := Ideal) .add [1] S256 (exp (scores x w b)) 0x00000000#32 reduces_S256x8192_S256 (.inl rfl) rfl)
                shapeCasts_S256_S256x1))
            broadcasts_S256x1_S256x8192) := rfl

/-- The contracted axis of the left factor is its axis 0. -/
theorem lhs0 (i : S256x8192.Idx) (r : dot_S256x256_S8192x256_S256x8192_0_1_1_0_n_n.contr.Idx) :
    (dot_S256x256_S8192x256_S256x8192_0_1_1_0_n_n.lhsIdx i r 0).val = (r ⟨0, by decide⟩).val :=
  dot_S256x256_S8192x256_S256x8192_0_1_1_0_n_n.lhsIdx_val_of_single rfl i r

/-- Its axis 1 is the output's row. -/
theorem lhs1 (i : S256x8192.Idx) (r : dot_S256x256_S8192x256_S256x8192_0_1_1_0_n_n.contr.Idx) :
    (dot_S256x256_S8192x256_S256x8192_0_1_1_0_n_n.lhsIdx i r 1).val = (i 0).val := by
  unfold DotDims.lhsIdx
  rw [dif_neg (show ¬(1 : Fin S256x256.rank) ∈ dot_S256x256_S8192x256_S256x8192_0_1_1_0_n_n.lhsBatch by decide),
    dif_pos (show (1 : Fin S256x256.rank) ∈ dot_S256x256_S8192x256_S256x8192_0_1_1_0_n_n.lhsNonContracting by decide)]
  rfl

/-- The right factor's axis 0 is the output's column. -/
theorem rhs0 (i : S256x8192.Idx) (r : dot_S256x256_S8192x256_S256x8192_0_1_1_0_n_n.contr.Idx) :
    (dot_S256x256_S8192x256_S256x8192_0_1_1_0_n_n.rhsIdx i r 0).val = (i 1).val := by
  unfold DotDims.rhsIdx
  rw [dif_neg (show ¬(0 : Fin S8192x256.rank) ∈ dot_S256x256_S8192x256_S256x8192_0_1_1_0_n_n.rhsBatch by decide),
    dif_pos (show (0 : Fin S8192x256.rank) ∈ dot_S256x256_S8192x256_S256x8192_0_1_1_0_n_n.rhsNonContracting by decide)]
  rfl

/-- Its contracted axis is its axis 1. -/
theorem rhs1 (i : S256x8192.Idx) (r : dot_S256x256_S8192x256_S256x8192_0_1_1_0_n_n.contr.Idx) :
    (dot_S256x256_S8192x256_S256x8192_0_1_1_0_n_n.rhsIdx i r 1).val = (r ⟨0, by decide⟩).val :=
  dot_S256x256_S8192x256_S256x8192_0_1_1_0_n_n.rhsIdx_val_of_single rfl i r

/-- The matrix product into a zero accumulator, at `(p, q)`: the sum over the 256 channels of the left factor at
    `(k, p)` times the right factor at `(q, k)`. -/
theorem matmul_at (l : FVec Ideal S256x256 .bf16) (r : FVec Ideal S8192x256 .bf16) (p : Fin 256) (q : Fin 8192) :
    matmul dot_S256x256_S8192x256_S256x8192_0_1_1_0_n_n none l r (constant S256x8192 .f32 0x00000000#32) (ix2 p q)
      = ∑ k : Fin 256, l (ix2 k p) * r (ix2 q k) := by
  simp only [matmul]
  rw [Ideal.matmul_constant_zero_apply, ← Equiv.sum_comp (ValueIdx.contrEquiv1 dot_S256x256_S8192x256_S256x8192_0_1_1_0_n_n 256 rfl rfl).symm]
  refine Finset.sum_congr rfl fun k _ => ?_
  have hk := ValueIdx.contrEquiv1_symm_val dot_S256x256_S8192x256_S256x8192_0_1_1_0_n_n 256 rfl rfl k
  have el : dot_S256x256_S8192x256_S256x8192_0_1_1_0_n_n.lhsIdx (ix2 p q) ((ValueIdx.contrEquiv1 dot_S256x256_S8192x256_S256x8192_0_1_1_0_n_n 256 rfl rfl).symm k) = ix2 k p :=
    funext fun a => Fin.ext (by
      match a with
      | ⟨0, _⟩ => exact (lhs0 _ _).trans hk
      | ⟨1, _⟩ => exact lhs1 _ _)
  have er : dot_S256x256_S8192x256_S256x8192_0_1_1_0_n_n.rhsIdx (ix2 p q) ((ValueIdx.contrEquiv1 dot_S256x256_S8192x256_S256x8192_0_1_1_0_n_n 256 rfl rfl).symm k) = ix2 q k :=
    funext fun a => Fin.ext (by
      match a with
      | ⟨0, _⟩ => exact rhs0 _ _
      | ⟨1, _⟩ => exact (rhs1 _ _).trans hk)
  rw [el, er]

/-- The block of scores at `(p, q)` is token `p`'s score against atom `q`. -/
theorem scores_apply (x : FVec Ideal S1x256x256 .f32) (w : FVec Ideal S8192x256 .bf16) (b : FVec Ideal S1x8192 .f32)
    (p : Fin 256) (q : Fin 8192) : scores x w b (ix2 p q) = blockLogit x w b p q := by
  unfold scores blockLogit
  rw [addf_apply, matmul_at, broadcastTo_1b_ab_apply, shapeCast_self, shapeCast_self]
  refine congrArg (· + b (ix2 (0 : Fin 1) q)) (Finset.sum_congr rfl fun k _ => ?_)
  rw [truncf_apply, shapeCast_1ab_ab_apply]

/-- The sum over the last axis of a `[256, 8192]` block, read at row `p`: the sum of that row's 8192 entries. -/
theorem rowsum_apply (e : FVec Ideal S256x8192 .f32) (hφ : FKind.Formats .f32) (hacc : (0x00000000#32 : BitVec 32) = 0x00000000#32)
    (p : Fin 256) :
    multiReduction (F := Ideal) .add [1] S256 e 0x00000000#32 reduces_S256x8192_S256 hφ hacc (ix1 p) = ∑ a : Fin 8192, e (ix2 p a) :=
  Cert.LibKeepdims.multiReduction_add_lastAxis_apply e 0x00000000#32 reduces_S256x8192_S256 hφ hacc p

/-- THE STORED VALUE at `(p, q)`: the exponential of token `p`'s score against atom `q`, times the quotient of the
    literal `1.0` by the sum of the exponentials of token `p`'s 8192 scores. -/
theorem pay_apply (x : FVec Ideal S1x256x256 .f32) (w : FVec Ideal S8192x256 .bf16) (b : FVec Ideal S1x8192 .f32)
    (p : Fin 256) (q : Fin 8192) :
    k0_pay1 (F := Ideal) x w b (ix2 p q)
      = Ideal.exp (blockLogit x w b p q) * Ideal.div (Ideal.ofBits .f32 0x3F800000#32) (∑ a : Fin 8192, Ideal.exp (blockLogit x w b p a)) := by
  rw [pay_eq]
  refine congrArg₂ (· * ·) (congrArg Ideal.exp (scores_apply x w b p q)) ?_
  refine (Cert.LibKeepdims.broadcastTo_a1_ab_apply _ _ p q (0 : Fin 1)).trans ?_
  refine congrArg (Ideal.div (Ideal.ofBits .f32 0x3F800000#32)) ?_
  refine (Cert.LibKeepdims.shapeCast_a_a1_apply _ _ p (0 : Fin 1)).trans ?_
  refine (rowsum_apply _ _ _ p).trans ?_
  exact Finset.sum_congr rfl fun a _ => congrArg Ideal.exp (scores_apply x w b p a)

end Cert.KernelSoftmax

end
-- ==== Proof.Spec.lean ====
/-
  The function both programs compute, as ONE function of the three argument arrays.

  The input is a stack of 32 images of 256 channels on a 32 × 32 grid. A TOKEN is a position (image, row, column),
  numbered `n = image · 1024 + row · 32 + column` (so `n < 32768`); its feature vector is the 256 channel entries at that
  position. A dictionary of 8192 ATOMS, each a vector of 256 weights with a bias, scores a token by
  `logit n a = (∑ k, z[token n, channel k] · w[a, k]) + b[a]`, and the result is the softmax of a token's scores over the
  atoms: `G n a = e^{logit n a} · (1 / ∑ a', e^{logit n a'})`, read on the extended reals.
-/
import Idealize.ShloMosaic.PureOps.Ideal
import Idealize.ShloMosaic.Lib.ValueIdx

noncomputable section

namespace Cert.Spec

open Idealize.ShloMosaic Idealize.ShloMosaic.ValueIdx

/-- Where channel `k` of token `n` sits in the `[32, 256, 32, 32]` input: image `n / 1024`, channel `k`, row
    `n / 32 mod 32`, column `n mod 32`. -/
def tok (n : Fin 32768) (k : Fin 256) : (⟨4, ![32, 256, 32, 32]⟩ : Shape).Idx :=
  ix4 (⟨n.val / 1024, by have := n.isLt; omega⟩ : Fin 32) k (⟨n.val / 32 % 32, by omega⟩ : Fin 32) (⟨n.val % 32, by omega⟩ : Fin 32)

/-- Token `n`'s score against atom `a`: the inner product of the token's 256 channel entries with the atom's
    weights, plus the atom's bias. -/
def logit (z : (⟨4, ![32, 256, 32, 32]⟩ : Shape).Idx → EReal) (w : (⟨2, ![8192, 256]⟩ : Shape).Idx → EReal)
    (b : (⟨1, ![8192]⟩ : Shape).Idx → EReal) (n : Fin 32768) (a : Fin 8192) : EReal :=
  (∑ k : Fin 256, z (tok n k) * w (ix2 a k)) + b (ix1 a)

/-- The softmax of token `i 0`'s scores, at atom `i 1`, with no shift of the exponent: the exponential of the score
    times the reciprocal of the sum of the exponentials of that token's 8192 scores. -/
def G (z : (⟨4, ![32, 256, 32, 32]⟩ : Shape).Idx → EReal) (w : (⟨2, ![8192, 256]⟩ : Shape).Idx → EReal)
    (b : (⟨1, ![8192]⟩ : Shape).Idx → EReal) : (⟨2, ![32768, 8192]⟩ : Shape).Idx → EReal :=
  fun i => Ideal.exp (logit z w b (i 0) (i 1)) * Ideal.div 1 (∑ a : Fin 8192, Ideal.exp (logit z w b (i 0) a))

theorem G_apply (z : (⟨4, ![32, 256, 32, 32]⟩ : Shape).Idx → EReal) (w : (⟨2, ![8192, 256]⟩ : Shape).Idx → EReal)
    (b : (⟨1, ![8192]⟩ : Shape).Idx → EReal) (n : Fin 32768) (a : Fin 8192) :
    G z w b (ix2 n a) = Ideal.exp (logit z w b n a) * Ideal.div 1 (∑ a' : Fin 8192, Ideal.exp (logit z w b n a')) := rfl

end Cert.Spec

end
-- ==== Proof.SoftmaxLaw.lean ====
import Idealize.ShloMosaic.PureOps.Ideal
import Idealize.ShloMosaic.PureOps.Ideal.Laws

/-!
Shift invariance of the row softmax on the extended reals, for finite logits, together with the
small facts it rests on: the embedding of the reals commutes with finite sums, a bias plus a finite
sum of products of finite reals is finite, and the maximum of finitely many finite reals is finite.
-/

namespace Cert.SoftmaxLaw

open Idealize.ShloMosaic

/-- the embedding of the reals into the extended reals commutes with finite sums -/
theorem sum_coe {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- a bias plus a finite sum of products of finite reals is a finite real -/
theorem exists_real_dot_add {n : ℕ} (x y : Fin n → EReal) (b : EReal)
    (hx : ∀ k, ∃ r : ℝ, x k = (r : EReal)) (hy : ∀ k, ∃ r : ℝ, y k = (r : EReal))
    (hb : ∃ r : ℝ, b = (r : EReal)) : ∃ r : ℝ, (∑ k : Fin n, x k * y k) + b = (r : EReal) := by
  choose rx hrx using hx
  choose ry hry using hy
  obtain ⟨rb, rfl⟩ := hb
  refine ⟨(∑ k : Fin n, rx k * ry k) + rb, ?_⟩
  have h : (∑ k : Fin n, x k * y k) = ∑ k : Fin n, ((rx k * ry k : ℝ) : EReal) :=
    Finset.sum_congr rfl (fun k _ => by rw [hrx k, hry k, EReal.coe_mul])
  rw [h, sum_coe, EReal.coe_add]

/-- the maximum, folded from −∞, of at least one finite real is a finite real (also after one more
    max with −∞) -/
theorem exists_real_max_fold {n : ℕ} (hn : 0 < n) (f : Fin n → EReal)
    (hf : ∀ k, ∃ r : ℝ, f k = (r : EReal)) :
    ∃ r : ℝ, max (⊥ : EReal) ((Finset.univ : Finset (Fin n)).fold max (⊥ : EReal) f) = (r : EReal) := by
  -- the fold is below +∞ because −∞ and every entry are
  have hlt : (Finset.univ : Finset (Fin n)).fold max (⊥ : EReal) f < ⊤ := by
    rw [Finset.fold_max_lt]
    refine ⟨bot_lt_top, fun k _ => ?_⟩
    obtain ⟨r, hr⟩ := hf k
    rw [hr]
    exact EReal.coe_lt_top r
  -- the fold is above −∞ because it dominates the first entry, a finite real
  have hle : f ⟨0, hn⟩ ≤ (Finset.univ : Finset (Fin n)).fold max (⊥ : EReal) f := by
    rw [Finset.le_fold_max]
    exact Or.inr ⟨⟨0, hn⟩, Finset.mem_univ _, le_rfl⟩
  have hbot : ⊥ < (Finset.univ : Finset (Fin n)).fold max (⊥ : EReal) f := by
    obtain ⟨r, hr⟩ := hf ⟨0, hn⟩
    rw [hr] at hle
    exact lt_of_lt_of_le (EReal.bot_lt_coe r) hle
  refine ⟨((Finset.univ : Finset (Fin n)).fold max (⊥ : EReal) f).toReal, ?_⟩
  rw [max_eq_right bot_le, EReal.coe_toReal hlt.ne hbot.ne']

/-- shift invariance of softmax on the extended reals, for finite logits and a finite shift:
    exp (l a − M) / Σ exp (l k − M) = exp (l a) · (1 / Σ exp (l k)) -/
theorem softmax_shift {n : ℕ} (l : Fin n → EReal) (hl : ∀ k, ∃ r : ℝ, l k = (r : EReal))
    (M : EReal) (hM : ∃ r : ℝ, M = (r : EReal)) (a : Fin n) :
    Ideal.div (Ideal.exp (l a - M)) (0 + ∑ k : Fin n, Ideal.exp (l k - M))
      = Ideal.exp (l a) * Ideal.div 1 (∑ k : Fin n, Ideal.exp (l k)) := by
  choose r hr using hl
  obtain ⟨m, rfl⟩ := hM
  -- both denominators are embedded real sums of exponentials
  have h1 : (∑ k : Fin n, Ideal.exp (l k - (m : EReal)))
      = ((∑ k : Fin n, Real.exp (r k - m) : ℝ) : EReal) := by
    rw [← sum_coe]
    exact Finset.sum_congr rfl (fun k _ => by rw [hr k, ← EReal.coe_sub, Ideal.exp_coe])
  have h2 : (∑ k : Fin n, Ideal.exp (l k)) = ((∑ k : Fin n, Real.exp (r k) : ℝ) : EReal) := by
    rw [← sum_coe]
    exact Finset.sum_congr rfl (fun k _ => by rw [hr k, Ideal.exp_coe])
  -- and both are positive: the index set is inhabited and every exponential is positive
  haveI : Nonempty (Fin n) := ⟨a⟩
  have p1 : 0 < ∑ k : Fin n, Real.exp (r k - m) :=
    Finset.sum_pos (fun k _ => Real.exp_pos _) Finset.univ_nonempty
  have p2 : 0 < ∑ k : Fin n, Real.exp (r k) :=
    Finset.sum_pos (fun k _ => Real.exp_pos _) Finset.univ_nonempty
  -- the shifted sum is the unshifted one divided by exp m
  have hs : (∑ k : Fin n, Real.exp (r k - m)) = (∑ k : Fin n, Real.exp (r k)) / Real.exp m := by
    rw [Finset.sum_div]
    exact Finset.sum_congr rfl (fun k _ => Real.exp_sub _ _)
  rw [zero_add, h1, h2, Ideal.div_coe p1.ne', Ideal.div_coe p2.ne', hr a, ← EReal.coe_sub,
    Ideal.exp_coe, Ideal.exp_coe, one_mul, ← EReal.coe_mul, ← EReal.coe_mul, EReal.coe_eq_coe_iff,
    hs, Real.exp_sub]
  have hm : Real.exp m ≠ 0 := (Real.exp_pos m).ne'
  have hp : (∑ k : Fin n, Real.exp (r k)) ≠ 0 := p2.ne'
  field_simp

/-- the pattern with sign 1, exponent all ones and zero fraction is −∞ -/
theorem ofBits_neg_inf : Ideal.ofBits .f32 0xFF800000#32 = (⊥ : EReal) := by
  simp [Ideal.ofBits, Ideal.ieee]

/-- the pattern with sign 0, exponent all ones and zero fraction is +∞ -/
theorem ofBits_pos_inf : Ideal.ofBits .f32 0x7F800000#32 = (⊤ : EReal) := by
  simp [Ideal.ofBits, Ideal.ieee]

/-- the pattern with sign 0, biased exponent 127 and zero fraction is 2²³ · 2⁻²³ = 1 -/
theorem ofBits_one : Ideal.ofBits .f32 0x3F800000#32 = (1 : EReal) := by
  simp [Ideal.ofBits, Ideal.ieee]
  -- what is left is the real identity 2²³ · (2²³)⁻¹ = 1 under the embedding
  rw [← EReal.coe_mul]
  norm_num

end Cert.SoftmaxLaw
-- ==== Proof.KernelValue.lean ====
/-
  The kernel's output array after the run is the specification's function of the argument arrays.

  The grid has 128 points; point `t` (image `t / 4`, quarter `t mod 4` of that image's 1024 positions) reads the
  `[1, 256, 256]` block `(t / 4, 0, t mod 4)` of the input reshaped to `[32, 256, 1024]`, the whole weight matrix and bias
  row, and writes rows `256 t … 256 t + 255` of the `[32768, 8192]` output. Position `256 (t mod 4) + p` of image `t / 4`
  is token `256 t + p`, so row `p` of the block the point writes is row `256 t + p` of the specification; the 128 row
  blocks tile the output.
-/
import proofs.«172182_g76914274337305_cont_9to1_m_1179_6_alg».proof.Proof.Gen.KernelIdeal.Value
import proofs.«172182_g76914274337305_cont_9to1_m_1179_6_alg».proof.Proof.Payload
import proofs.«172182_g76914274337305_cont_9to1_m_1179_6_alg».proof.Proof.Spec
import proofs.«172182_g76914274337305_cont_9to1_m_1179_6_alg».proof.Proof.SoftmaxLaw
import Idealize.ShloMosaic.Lib.Pipeline.Value
import Idealize.ShloMosaic.Lib.StableHlo.Run
import Idealize.ShloMosaic.Lib.ValueIdx

noncomputable section

namespace Cert.KernelSoftmax

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds -/

/-- The first operand is the input with its two position axes flattened. -/
theorem V_v0 (c : Dev nD) : (V m c main_v0 : S32x256x1024.Idx → EReal)
    = shapeCast S32x256x1024 (m ((c : Thread nD τ).loc main_arg0)) shapeCasts_S32x256x32x32_S32x256x1024 := by
  dsimp only [Gen.V, Gen.hostOps0]; after_results <;> rfl

/-- The second operand is the weight matrix in another float format: the same extended reals. -/
theorem V_v1 (c : Dev nD) : (V m c main_v1 : S8192x256.Idx → EReal)
    = truncf (F := Ideal) .bf16 (m ((c : Thread nD τ).loc main_arg1)) bitsLt_bf16_f32 := by
  dsimp only [Gen.V, Gen.hostOps0]; after_results <;> rfl

/-- The third operand is the bias as one row. -/
theorem V_v2 (c : Dev nD) : (V m c main_v2 : S1x8192.Idx → EReal)
    = shapeCast S1x8192 (m ((c : Thread nD τ).loc main_arg2)) shapeCasts_S8192_S1x8192 := by
  dsimp only [Gen.V, Gen.hostOps0]; after_results <;> rfl

/-! ## The index maps over the grid -/

theorem grid_lt (t : Fin cfg0.N) : t.val < 128 := lt_of_lt_of_eq t.isLt N_0

/-- The printed index maps, decided over the 128 points: the input block is `(t / 4, 0, t mod 4)`, the weight and bias
    blocks are the whole arrays, the output block is row block `t`. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block point `t` writes is token `256 t + p`. -/
def rowOf (t : Fin cfg0.N) (p : Fin 256) : Fin 32768 := ⟨t.val * 256 + p.val, by have := grid_lt t; have := p.isLt; omega⟩

/-! ## The input blocks at a point -/

theorem hz2 : (![0, 0] : Fin 2 → Nat) = fun _ => 0 := funext fun a => by fin_cases a <;> rfl
theorem hz3 : (![0, 0, 0] : Fin 3 → Nat) = fun _ => 0 := funext fun a => by fin_cases a <;> rfl

/-- The input block at point `t`, at channel `k` and position `p`, is the input at token `256 t + p`, channel `k`. -/
theorem blk0_apply (c : Dev nD) (t : Fin cfg0.N) (k p : Fin 256) :
    iblk m c 0 t (ix3 (0 : Fin 1) k p) = m ((c : Thread nD τ).loc main_arg0) (Cert.Spec.tok (rowOf t p) k) := by
  show V m c main_v0 (((cfg0.win 0).blk t).view.emb (ix3 (0 : Fin 1) k p)) = _
  rw [V_v0]
  refine shapeCast_apply (s := S32x256x32x32) (t := S32x256x1024) _ _ _ _ ?_
  rw [Shape.rowMajor_val_four, Shape.rowMajor_val_three]
  obtain ⟨e0, e1, e2, -⟩ := idx_facts t
  have ht := grid_lt t
  have hk : k.val < 256 := k.isLt
  have hp : p.val < 256 := p.isLt
  show (((t.val * 256 + p.val) / 1024 * 256 + k.val) * 32 + (t.val * 256 + p.val) / 32 % 32) * 32 + (t.val * 256 + p.val) % 32
    = ((win0_0.index t (0 : Fin 3) * 1 + 1 * 0) * 256 + (win0_0.index t (1 : Fin 3) * 256 + 1 * k.val)) * 1024 + (win0_0.index t (2 : Fin 3) * 256 + 1 * p.val)
  omega

/-- The weight block at any point is the weight matrix. -/
theorem blk1_apply (c : Dev nD) (t : Fin cfg0.N) (q : Fin 8192) (k : Fin 256) :
    iblk m c 1 t (ix2 q k) = m ((c : Thread nD τ).loc main_arg1) (ix2 q k) := by
  show V m c main_v1 (((cfg0.win 1).blk t).view.emb (ix2 q k)) = _
  rw [V_v1, truncf_apply]
  refine congrArg _ (funext fun a => Fin.ext ?_)
  obtain ⟨-, -, -, e0, e1, -⟩ := idx_facts t
  match a with
  | ⟨0, _⟩ => show win0_1.index t (0 : Fin 2) * 8192 + 1 * q.val = q.val; omega
  | ⟨1, _⟩ => show win0_1.index t (1 : Fin 2) * 256 + 1 * k.val = k.val; omega

/-- The bias block at any point is the bias. -/
theorem blk2_apply (c : Dev nD) (t : Fin cfg0.N) (q : Fin 8192) :
    iblk m c 2 t (ix2 (0 : Fin 1) q) = m ((c : Thread nD τ).loc main_arg2) (ix1 q) := by
  show V m c main_v2 (((cfg0.win 2).blk t).view.emb (ix2 (0 : Fin 1) q)) = _
  rw [V_v2]
  refine shapeCast_apply (s := S8192) (t := S1x8192) _ _ _ _ ?_
  rw [Shape.rowMajor_val_one, Shape.rowMajor_val_two]
  obtain ⟨-, -, -, -, -, e0, e1, -⟩ := idx_facts t
  show q.val = (win0_2.index t (0 : Fin 2) * 1 + 1 * 0) * 8192 + (win0_2.index t (1 : Fin 2) * 8192 + 1 * q.val)
  omega

/-! ## What a point writes -/

/-- With the blocks read where they sit, the stored value at `(p, q)` is the specification at row `n`, column `q`:
    the block's scores are the specification's, and the literal `1.0` is one. -/
theorem point_value (z : (⟨4, ![32, 256, 32, 32]⟩ : Shape).Idx → EReal) (wt : (⟨2, ![8192, 256]⟩ : Shape).Idx → EReal)
    (bs : (⟨1, ![8192]⟩ : Shape).Idx → EReal)
    (x : FVec Ideal S1x256x256 .f32) (w : FVec Ideal S8192x256 .bf16) (b : FVec Ideal S1x8192 .f32) (n : Fin 32768) (p : Fin 256)
    (hx : ∀ k : Fin 256, x (ix3 (0 : Fin 1) k p) = z (Cert.Spec.tok n k))
    (hw : ∀ (q : Fin 8192) (k : Fin 256), w (ix2 q k) = wt (ix2 q k))
    (hb : ∀ q : Fin 8192, b (ix2 (0 : Fin 1) q) = bs (ix1 q)) (q : Fin 8192) :
    k0_pay1 (F := Ideal) x w b (ix2 p q) = Cert.Spec.G z wt bs (ix2 n q) := by
  have hl : ∀ a : Fin 8192, blockLogit x w b p a = Cert.Spec.logit z wt bs n a := fun a => by
    unfold blockLogit Cert.Spec.logit
    rw [hb a]
    exact congrArg (· + bs (ix1 a)) (Finset.sum_congr rfl fun k _ => by rw [hx k, hw a k])
  rw [pay_apply, Cert.Spec.G_apply, Cert.SoftmaxLaw.ofBits_one]
  simp only [hl]

/-- WHAT POINT `t` WRITES BACK is block `t` of the specification of the argument arrays. -/
theorem flushed_eq (c : Dev nD) (t : Fin cfg0.N) :
    (dats m 0 c).flushed 3 t = ((cfg0.win 3).blk t).view.read (Elt Ideal)
      (Cert.Spec.G (m ((c : Thread nD τ).loc main_arg0)) (m ((c : Thread nD τ).loc main_arg1)) (m ((c : Thread nD τ).loc main_arg2))) := by
  rw [Cert.KernelIdeal.Value.flushed3]
  unfold out0_3
  rw [View.canon_unit_zero hz2]
  simp only [View.ld_unit_zero (S := S1x256x256) hz3, View.ld_unit_zero (S := S8192x256) hz2, View.ld_unit_zero (S := S1x8192) hz2]
  funext j
  obtain ⟨p, q, rfl⟩ : ∃ (p : Fin 256) (q : Fin 8192), j = ix2 p q := ⟨j 0, j 1, eq_ix2 j⟩
  show k0_pay1 (F := Ideal) (iblk m c 0 t) (iblk m c 1 t) (iblk m c 2 t) (ix2 p q)
    = Cert.Spec.G (m ((c : Thread nD τ).loc main_arg0)) (m ((c : Thread nD τ).loc main_arg1)) (m ((c : Thread nD τ).loc main_arg2))
        (((cfg0.win 3).blk t).view.emb (ix2 p q))
  have he : ((cfg0.win 3).blk t).view.emb (ix2 p q) = ix2 (rowOf t p) q := by
    obtain ⟨-, -, -, -, -, -, -, e0, e1⟩ := idx_facts t
    funext a; apply Fin.ext
    match a with
    | ⟨0, _⟩ => show win0_3.index t (0 : Fin 2) * 256 + 1 * p.val = t.val * 256 + p.val; omega
    | ⟨1, _⟩ => show win0_3.index t (1 : Fin 2) * 8192 + 1 * q.val = q.val; omega
  rw [he]
  exact point_value _ _ _ (iblk m c 0 t) (iblk m c 1 t) (iblk m c 2 t) (rowOf t p) p
    (fun k => blk0_apply m c t k p) (fun q k => blk1_apply m c t q k) (fun q => blk2_apply m c t q) q

/-! ## The blocks tile the output -/

/-- An index of the output is in point `t`'s block iff each coordinate is in the block's range on its axis. -/
theorem mem_blk (t : Fin cfg0.N) (i : S32768x8192.Idx) :
    i ∈ ((cfg0.win 3).blk t).view.set ↔ ∀ a : Fin 2, win0_3.index t a * S256x8192.size a ≤ (i a).val ∧ (i a).val < win0_3.index t a * S256x8192.size a + S256x8192.size a := by
  show i ∈ ((View.whole main_v3).slice (win0_3.rect t)).set ↔ _
  rw [View.set_slice_whole, Rect.mem_set_unit]
  exact Iff.rfl

/-- Every index of the output is in the block of the point that owns its row: point `row / 256`. -/
theorem cover (i : S32768x8192.Idx) : ∃ t : Fin cfg0.N, (cfg0.win 3).flush t = true ∧ i ∈ ((cfg0.win 3).blk t).view.set := by
  have hi0 : (i 0).val < 32768 := (i 0).isLt
  have hi1 : (i 1).val < 8192 := (i 1).isLt
  let t : Fin cfg0.N := ⟨(i 0).val / 256, lt_of_lt_of_eq (by omega : (i 0).val / 256 < 128) N_0.symm⟩
  obtain ⟨-, -, -, -, -, -, -, e0, e1⟩ := idx_facts t
  have ht : t.val = (i 0).val / 256 := rfl
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 8192 ≤ (i 1).val ∧ (i 1).val < win0_3.index t (1 : Fin 2) * 8192 + 8192; omega

/-- THE OUTPUT ARRAY after the run is the specification of the argument arrays. -/
theorem final (c : Dev nD) : (dats m 0 c).arrAt 3 cfg0.N
    = Cert.Spec.G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: every weakly fair execution ends with the output at the specification of the arguments and the
    arguments unchanged. -/
theorem run : θ_run defs (onTc (τ := τ) (main (F := Ideal))) ⟨m, fun _ => 0, ρ⟩ fun r => ∀ c : Dev nD,
      r.2.mem ((c : Thread nD τ).loc main_v3)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelSoftmax

end
-- ==== Proof.RefLogits.lean ====
/-
  The reference's scores, read at an index, are the specification's.

  The reference moves the channel axis last (`[32, 256, 32, 32] → [32, 32, 32, 256]`), flattens the three leading axes
  into the token axis (`[32768, 256]`: token `n` is image `n / 1024`, row `n / 32 mod 32`, column `n mod 32`), multiplies
  by the transposed weights and adds the bias broadcast over the tokens. So its entry `(n, a)` is the sum over the 256
  channels of the input at token `n`, channel `k`, times the weight `(a, k)`, plus the bias of atom `a`.
-/
import proofs.«172182_g76914274337305_cont_9to1_m_1179_6_alg».proof.Proof.Gen.ReferenceIdeal.Read
import proofs.«172182_g76914274337305_cont_9to1_m_1179_6_alg».proof.Proof.Spec

noncomputable section

namespace Cert.RefSoftmax

open Cert.ReferenceIdeal Cert.ReferenceIdeal.Gen Cert.ReferenceIdeal.Read Idealize.ShloMosaic Idealize.ShloMosaic.ValueIdx

/-- The left factor's entry `(n, k)` is the input at token `n`, channel `k`: the flattening then the channel-last
    permutation, undone. -/
theorem tok_eq (n : Fin 32768) (a : Fin 8192) (k : Fin 256) :
    idx_main_v0 (idx_main_v1 (lidx_main_v3 (ix2 n a) k)) = Cert.Spec.tok n k := by
  have hn : n.val < 32768 := n.isLt
  have hk : k.val < 256 := k.isLt
  funext ax; apply Fin.ext
  match ax with
  | ⟨0, _⟩ => show (n.val * 256 + k.val) / 262144 = n.val / 1024; omega
  | ⟨1, _⟩ => show (n.val * 256 + k.val) % 256 = k.val; omega
  | ⟨2, _⟩ => show (n.val * 256 + k.val) / 8192 % 32 = n.val / 32 % 32; omega
  | ⟨3, _⟩ => show (n.val * 256 + k.val) / 256 % 32 = n.val % 32; omega

/-- The right factor's entry `(k, a)` is the weight `(a, k)`. -/
theorem wt_eq (n : Fin 32768) (a : Fin 8192) (k : Fin 256) : idx_main_v2 (ridx_main_v3 (ix2 n a) k) = ix2 a k := by
  funext ax; apply Fin.ext
  match ax with
  | ⟨0, _⟩ => rfl
  | ⟨1, _⟩ => rfl

/-- The broadcast bias at `(n, a)` is the bias of atom `a`. -/
theorem bias_eq (n : Fin 32768) (a : Fin 8192) : idx_main_v4 (idx_main_v5 (ix2 n a)) = ix1 a := by
  funext ax; apply Fin.ext
  match ax with
  | ⟨0, _⟩ => rfl

/-- THE REFERENCE'S SCORES: entry `(n, a)` of the product plus bias is token `n`'s score against atom `a`. -/
theorem logits_apply (x0 : (⟨S32x256x32x32, .f32⟩ : BufTy).Contents (Elt Ideal)) (x1 : (⟨S8192x256, .f32⟩ : BufTy).Contents (Elt Ideal))
    (x2 : (⟨S8192, .f32⟩ : BufTy).Contents (Elt Ideal)) (n : Fin 32768) (a : Fin 8192) :
    val_main_v6 (F := Ideal) x0 x1 x2 (ix2 n a) = Cert.Spec.logit x0 x1 x2 n a := by
  rw [val_main_v6_apply, val_main_v3_apply, val_main_v5_apply, val_main_v4_apply, bias_eq]
  unfold Cert.Spec.logit
  simp only [val_main_v1_apply, val_main_v0_apply, val_main_v2_apply, tok_eq, wt_eq, Ideal.addf_def]

end Cert.RefSoftmax

end
-- ==== Proof.RefValue.lean ====
/-
  The reference's result is the specification's function of the argument arrays, when every input entry is finite.

  The reference is the softmax WITH a shift: it subtracts from each token's scores their maximum `M` (folded from −∞,
  then once more maxed with −∞), exponentiates, and divides by the sum: `e^{l − M} / ∑ e^{l' − M}`. When the inputs are
  finite every score is a finite real, so `M` is a finite real, and the shift cancels: the quotient is
  `e^{l} · (1 / ∑ e^{l'})`, the specification. (At an infinite score the two sides differ: `∞ − ∞`.)
-/
import proofs.«172182_g76914274337305_cont_9to1_m_1179_6_alg».proof.Proof.Gen.ReferenceIdeal.Read
import proofs.«172182_g76914274337305_cont_9to1_m_1179_6_alg».proof.Proof.RefLogits
import proofs.«172182_g76914274337305_cont_9to1_m_1179_6_alg».proof.Proof.SoftmaxLaw
import proofs.«172182_g76914274337305_cont_9to1_m_1179_6_alg».proof.Proof.Spec
import Idealize.ShloMosaic.PureOps.Reduce
import Idealize.ShloMosaic.PureOps.Ideal.Laws

noncomputable section

namespace Cert.RefSoftmax

open Cert.ReferenceIdeal Cert.ReferenceIdeal.Gen Cert.ReferenceIdeal.Read Idealize.ShloMosaic Idealize.ShloMosaic.ValueIdx

variable (x0 : (⟨S32x256x32x32, .f32⟩ : BufTy).Contents (Elt Ideal)) (x1 : (⟨S8192x256, .f32⟩ : BufTy).Contents (Elt Ideal))
  (x2 : (⟨S8192, .f32⟩ : BufTy).Contents (Elt Ideal))

/-- Finite inputs give finite scores: a finite sum of products of reals, plus a real. -/
theorem logit_real (h0 : ∀ i, ∃ r : ℝ, x0 i = (r : EReal)) (h1 : ∀ i, ∃ r : ℝ, x1 i = (r : EReal)) (h2 : ∀ i, ∃ r : ℝ, x2 i = (r : EReal))
    (n : Fin 32768) (a : Fin 8192) : ∃ r : ℝ, Cert.Spec.logit x0 x1 x2 n a = (r : EReal) :=
  Cert.SoftmaxLaw.exists_real_dot_add (fun k : Fin 256 => x0 (Cert.Spec.tok n k)) (fun k : Fin 256 => x1 (ix2 a k)) (x2 (ix1 a))
    (fun _ => h0 _) (fun _ => h1 _) (h2 _)

/-- Row `n` of the scores with column `k` inserted. -/
theorem lift_eq (h : S32768x8192.Reduces [1] S32768) (n : Fin 32768) (k : Fin 8192) : h.lift (ix1 n) k = ix2 n k := by
  funext ax; apply Fin.ext
  match ax with
  | ⟨0, _⟩ => rfl
  | ⟨1, _⟩ => rfl

/-- THE SHIFT is a finite real when the scores are: the maximum of token `n`'s 8192 scores, folded from −∞. -/
theorem shift_real (hl : ∀ (n : Fin 32768) (a : Fin 8192), ∃ r : ℝ, Cert.Spec.logit x0 x1 x2 n a = (r : EReal)) (n : Fin 32768) :
    ∃ r : ℝ, val_main_v9 (F := Ideal) x0 x1 x2 (ix1 n) = (r : EReal) := by
  have h : S32768x8192.Reduces [1] S32768 := by decide
  rw [val_main_v9_apply, val_main_v8_apply, val_main_cst_0_apply]
  unfold val_main_v7
  rw [Host.reduce_eq_fold_single FloatOps.maximumf _ _ reducesTo_S32768x8192_S32768_d1 h h_S_ (ix1 n)]
  have hf : (val_main_v6 (F := Ideal) x0 x1 x2 ∘ h.lift (ix1 n)) = fun k : Fin 8192 => Cert.Spec.logit x0 x1 x2 n k :=
    funext fun (k : Fin 8192) =>
      (congrArg (val_main_v6 (F := Ideal) x0 x1 x2) (lift_eq h n k)).trans (logits_apply x0 x1 x2 n k)
  rw [hf, val_main_cst_apply]
  simp only [Ideal.ofBits_def, Cert.SoftmaxLaw.ofBits_neg_inf]
  exact Cert.SoftmaxLaw.exists_real_max_fold (by decide) (fun k : Fin 8192 => Cert.Spec.logit x0 x1 x2 n k) (hl n)

theorem e_shift (n : Fin 32768) (a : Fin 8192) : idx_main_v10 (idx_main_v11 (ix2 n a)) = ix1 n := by
  funext ax; apply Fin.ext
  match ax with
  | ⟨0, _⟩ => rfl

theorem e_sum (n : Fin 32768) (a : Fin 8192) : idx_main_v15 (idx_main_v16 (ix2 n a)) = ix1 n := by
  funext ax; apply Fin.ext
  match ax with
  | ⟨0, _⟩ => rfl

theorem e_row (n : Fin 32768) (k : Fin 8192) : idx_main_v14 (ix1 n) k = ix2 n k := by
  funext ax; apply Fin.ext
  match ax with
  | ⟨0, _⟩ => rfl
  | ⟨1, _⟩ => rfl

/-- THE REFERENCE'S RESULT is the specification, for finite inputs: the shifted softmax equals the unshifted one. -/
theorem value_eq (h0 : ∀ i, ∃ r : ℝ, x0 i = (r : EReal)) (h1 : ∀ i, ∃ r : ℝ, x1 i = (r : EReal)) (h2 : ∀ i, ∃ r : ℝ, x2 i = (r : EReal)) :
    val_main_v17 (F := Ideal) x0 x1 x2 = Cert.Spec.G x0 x1 x2 := by
  funext i
  obtain ⟨n, a, rfl⟩ : ∃ (n : Fin 32768) (a : Fin 8192), i = ix2 n a := ⟨i 0, i 1, eq_ix2 i⟩
  have hl := logit_real x0 x1 x2 h0 h1 h2
  have hM := shift_real x0 x1 x2 hl n
  rw [val_main_v17_apply, val_main_v16_apply, val_main_v15_apply, e_sum, val_main_v14_apply, val_main_cst_1_apply,
    val_main_v13_apply, val_main_v12_apply, val_main_v11_apply, val_main_v10_apply, e_shift, logits_apply]
  simp only [val_main_v13_apply, val_main_v12_apply, val_main_v11_apply, val_main_v10_apply, e_row, e_shift, logits_apply,
    Ideal.hostDivf_def, Ideal.hostUnary_exp_def, Ideal.subf_def, Ideal.ofBits_def, Ideal.ofBits_zero_f32]
  rw [Cert.Spec.G_apply]
  exact Cert.SoftmaxLaw.softmax_shift (fun k : Fin 8192 => Cert.Spec.logit x0 x1 x2 n k) (hl n) _ hM a

end Cert.RefSoftmax

end
-- ==== Proof.FiniteInputs.lean ====
import proofs.«172182_g76914274337305_cont_9to1_m_1179_6_alg».proof.Pre_finite_inputs
import proofs.«172182_g76914274337305_cont_9to1_m_1179_6_alg».proof.Proof.Gen.Pre_finite_inputs
import Idealize.ShloMosaic.Lib.ReduceAll
import Idealize.ShloMosaic.PureOps.Ideal
import Idealize.ShloMosaic.PureOps.Ideal.Laws
import Idealize.ShloMosaic.Lib.ValueIdx

/-!
  From "every float input is finite" to "every entry of every input is a real number".

  The precondition is the conjunction of three tests `all (|x| < +∞)`, one per input array.
  Read on the extended reals, `|x|` is `max x (-x)` and the literal `0x7F800000` is `⊤`; an extended real
  `x` with `max x (-x) < ⊤` is neither `⊤` nor `⊥` (at `⊥` the maximum is `-⊥ = ⊤`), so it is a real.
  A conjunction of `i1` words is `1` exactly when both are, and an `and`-reduction over all axes that is `1`
  met a `1` at every index: so each of the three tests holds at every index of its array.
-/

noncomputable section

namespace Cert.FiniteInputs

open Idealize.ShloMosaic

/-- An extended real whose absolute value `max x (-x)` is strictly below `⊤` is a real number:
    at `⊤` the maximum is `⊤`, and at `⊥` it is `-⊥ = ⊤`. -/
theorem exists_real_of_abs_lt_top (x : EReal) (h : max x (-x) < ⊤) : ∃ r : ℝ, x = (r : EReal) := by
  induction x using EReal.rec with
  | bot => simp at h
  | coe r => exact ⟨r, rfl⟩
  | top => simp at h

/-- The f32 word `0x7F800000` (sign 0, exponent all ones, fraction 0) is `+∞`, the extended real `⊤`. -/
theorem ofBits_inf_f32 : Ideal.ofBits .f32 0x7F800000#32 = ⊤ := by simp [Ideal.ofBits, Ideal.ieee]

/-- The element fact, for an array of any shape: where the test `|x| < +∞` (the bound a rank-0 constant
    broadcast to the shape of `x`) is `1`, the entry of `x` is a real number. -/
theorem real_of_abs_olt_inf {s : Shape} (hb : (⟨0, ![]⟩ : Shape).BroadcastsInDim s ![]) (x : FVec Ideal s .f32) (i : s.Idx)
    (h : cmpf .olt (Host.absf x) (broadcastInDim s ![] hb (constant (⟨0, ![]⟩ : Shape) .f32 0x7F800000#32)) i = 1#1) :
    ∃ r : ℝ, x i = (r : EReal) := by
  -- the bound reads `⊤` at every index: the broadcast reads the one entry of the constant, which is the literal
  have hbound : broadcastInDim s ![] hb (constant (F := Ideal) (⟨0, ![]⟩ : Shape) .f32 0x7F800000#32) i = (⊤ : EReal) := by
    unfold broadcastInDim
    exact ofBits_inf_f32
  -- the comparison at `i` is the ordered `<` of `max (x i) (-(x i))` and `⊤`
  have h' : Ideal.cmp .olt (max (x i) (-(x i))) (⊤ : EReal) = 1#1 := by
    rw [← hbound]; exact h
  refine exists_real_of_abs_lt_top (x i) ?_
  by_contra hlt
  simp [Ideal.cmp, hlt] at h'

instance : Subsingleton Cert.Pre_finite_inputs.S_.Idx := ⟨fun a b => funext fun d => d.elim0⟩

/-- if the precondition's predicate is all ones on three arrays of extended reals, every entry of each is a real number -/
theorem of_pre [Cert.Pre_finite_inputs.Facts]
    (x0 : FVec Ideal Cert.Pre_finite_inputs.S32x256x32x32 .f32) (x1 : FVec Ideal Cert.Pre_finite_inputs.S8192x256 .f32) (x2 : FVec Ideal Cert.Pre_finite_inputs.S8192 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  -- the outer `and` at the one index is the `and` of two words; so is the inner one
  obtain ⟨h01, h2⟩ := IntOp.andi_eq_one.1 h0
  obtain ⟨h0', h1⟩ := IntOp.andi_eq_one.1 h01
  refine ⟨fun i => ?_, fun i => ?_, fun i => ?_⟩
  · exact real_of_abs_olt_inf _ x0 i (Host.reduce_andi_all _ _ _ _ _ h0' i)
  · exact real_of_abs_olt_inf _ x1 i (Host.reduce_andi_all _ _ _ _ _ h1 i)
  · exact real_of_abs_olt_inf _ x2 i (Host.reduce_andi_all _ _ _ _ _ h2 i)

end Cert.FiniteInputs

end
-- ==== Proof.lean ====
/-
  A dictionary layer's soft assignment: every position of a stack of 32 images (256 channels on a 32 × 32 grid) is a
  token with 256 features; 8192 atoms score it by an inner product with their weights plus a bias, and the result is the
  softmax of a token's scores over the atoms, a `[32768, 8192]` array.

  The kernel walks 128 blocks of 256 tokens. For a block it contracts the channel axis of the input block against the
  weights, adds the bias, exponentiates, sums each token's 8192 exponentials, and multiplies every exponential by the
  reciprocal of its token's sum: `e^{l} · (1 / ∑ e^{l'})`, with NO shift of the exponent. The reference transposes the
  channels last, multiplies, adds the bias and takes the softmax WITH the shift by the row maximum:
  `e^{l − M} / ∑ e^{l' − M}`.

  On the extended reals the two agree exactly when the scores are finite: then `M` is a finite real and
  `e^{l − M} = e^{l} / e^{M}`, so the factor `e^{M}` cancels between numerator and denominator. The scores are finite
  because the precondition makes every input entry a real number (a finite sum of products of reals, plus a real). At an
  infinite score the shifted form meets `∞ − ∞`, which is why the precondition is used and not only carried.

  The modules: `Spec` states the one function; `Payload` reads the kernel body's stored value at an entry;
  `KernelValue` reads each block where it sits in the arrays, shows that the 128 row blocks tile the output, and
  re-states the kernel's run with the output at the specification; `RefLogits` and `RefValue` read the reference's run
  at an entry and apply the cancellation (`SoftmaxLaw`); `FiniteInputs` turns the precondition into "every entry is
  real". The idealized kernel is the kernel's own text read on the extended reals (no rewrite was applied), so the
  idealization claim is trivial; the three frames are the generated ones.
-/
import proofs.«172182_g76914274337305_cont_9to1_m_1179_6_alg».proof.Defs
import proofs.«172182_g76914274337305_cont_9to1_m_1179_6_alg».proof.Proof.Gen.Kernel
import proofs.«172182_g76914274337305_cont_9to1_m_1179_6_alg».proof.Proof.Gen.Kernel.Skeleton
import proofs.«172182_g76914274337305_cont_9to1_m_1179_6_alg».proof.Proof.Gen.Kernel.Launch
import proofs.«172182_g76914274337305_cont_9to1_m_1179_6_alg».proof.Proof.Gen.Kernel.Points
import proofs.«172182_g76914274337305_cont_9to1_m_1179_6_alg».proof.Proof.Gen.Kernel.Frame
import proofs.«172182_g76914274337305_cont_9to1_m_1179_6_alg».proof.Proof.Gen.KernelIdeal
import proofs.«172182_g76914274337305_cont_9to1_m_1179_6_alg».proof.Proof.Gen.KernelIdeal.Skeleton
import proofs.«172182_g76914274337305_cont_9to1_m_1179_6_alg».proof.Proof.Gen.KernelIdeal.Launch
import proofs.«172182_g76914274337305_cont_9to1_m_1179_6_alg».proof.Proof.Gen.KernelIdeal.Points
import proofs.«172182_g76914274337305_cont_9to1_m_1179_6_alg».proof.Proof.Gen.KernelIdeal.Frame
import proofs.«172182_g76914274337305_cont_9to1_m_1179_6_alg».proof.Proof.Gen.ReferenceIdeal
import proofs.«172182_g76914274337305_cont_9to1_m_1179_6_alg».proof.Proof.Gen.Pre_finite_inputs
import proofs.«172182_g76914274337305_cont_9to1_m_1179_6_alg».proof.Proof.Gen.KernelIdeal.Value
import proofs.«172182_g76914274337305_cont_9to1_m_1179_6_alg».proof.Proof.Gen.ReferenceIdeal.Run
import proofs.«172182_g76914274337305_cont_9to1_m_1179_6_alg».proof.Proof.Gen.ReferenceIdeal.Read
import proofs.«172182_g76914274337305_cont_9to1_m_1179_6_alg».proof.Proof.KernelValue
import proofs.«172182_g76914274337305_cont_9to1_m_1179_6_alg».proof.Proof.RefValue
import proofs.«172182_g76914274337305_cont_9to1_m_1179_6_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the specification's softmax of the
    arguments: the kernel's output by the tiling of its 128 row blocks, the reference's result by the cancellation of
    the shift, which holds because the precondition makes every input entry, hence every score, a finite real. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelSoftmax.run m ρ, ?_⟩
  refine (θ_run Cert.ReferenceIdeal.defs _ _).mono (fun _ h c => ⟨?_, (h c).2⟩)
    (Cert.ReferenceIdeal.Value.run (F := Ideal) m' ρ')
  obtain ⟨h0, h1, h2⟩ := Cert.FiniteInputs.of_pre _ _ _ (hpre c)
  rw [(h c).1, Cert.ReferenceIdeal.Read.val_main_v17_eq, (hagree c).1, (hagree c).2.1, (hagree c).2.2]
  exact Cert.RefSoftmax.value_eq _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
